-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_

variable [Facts]

def fn {F : FTy → Type} [FloatOps F] (main_arg0 : FVec F S10000x128 .f32) (main_arg1 : FVec F S10000x10000 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  main_v8
-- ==== Kernel.lean ====
abbrev S10000x128 : Shape := ⟨2, ![10000, 128]⟩
abbrev S10000x10000 : Shape := ⟨2, ![10000, 10000]⟩
abbrev S200x10000 : Shape := ⟨2, ![200, 10000]⟩
abbrev S400x128 : Shape := ⟨2, ![400, 128]⟩
abbrev S200x128 : Shape := ⟨2, ![200, 128]⟩

abbrev nBuf : Space → Nat
  | .hbm => 3
  | .vmem => 7
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S10000x128, .f32⟩
  | .local _ .vmem, ⟨0, _⟩ => ⟨S10000x128, .f32⟩
  | .local _ .vmem, ⟨1, _⟩ => ⟨S200x10000, .f32⟩
  | .local _ .vmem, ⟨2, _⟩ => ⟨S200x10000, .f32⟩
  | .local _ .vmem, ⟨3, _⟩ => ⟨S200x10000, .f32⟩
  | .local _ .vmem, ⟨4, _⟩ => ⟨S200x10000, .f32⟩
  | .local _ .vmem, ⟨5, _⟩ => ⟨S400x128, .f32⟩
  | .local _ .vmem, ⟨6, _⟩ => ⟨S400x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c2_i32 : BitVec 32 := 2#32
  let v0 : BitVec 32 := Scalar.muli c2_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S200x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S200x10000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S400x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S200x10000_S200x10000_0_0 : ∀ a, (![0, 0] : Fin 2 → Nat) a + S200x10000.size a ≤ S200x10000.size a
  h_S200x10000 : 0 < S200x10000.numel
  inb_S10000x128_S10000x128_0_0 : ∀ a, (![0, 0] : Fin 2 → Nat) a + S10000x128.size a ≤ S10000x128.size a
  h_S10000x128 : 0 < S10000x128.numel
  inb_S400x128_S200x128_0_0 : ∀ a, (![0, 0] : Fin 2 → Nat) a + S200x128.size a ≤ S400x128.size a
  h_S200x128 : 0 < S200x128.numel
  inb_S400x128_S200x128_200_0 : ∀ a, (![200, 0] : Fin 2 → Nat) a + S200x128.size a ≤ S400x128.size a
  dot_S200x10000_S10000x128_S200x128_1_0_0_1_n_n_wf : DotDims.WF S200x10000 S10000x128 S200x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S200x10000.size a ≤ S10000x10000.size a
  hwx0_1 : ∀ i : grid0.Coords, EltTy.bits .f32 = 32 ∨ (Rect.block (s := S10000x10000) S200x10000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S200x10000.size a ≤ S10000x10000.size a
  hwx0_2 : ∀ i : grid0.Coords, EltTy.bits .f32 = 32 ∨ (Rect.block (s := S10000x10000) S200x10000.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S400x128.size a ≤ S10000x128.size a
  hwx0_3 : ∀ i : grid0.Coords, EltTy.bits .f32 = 32 ∨ (Rect.block (s := S10000x128) S400x128.size (cc0_transform_3 i) (hinb0_3 i)).WholeWords (EltTy.packing .f32)

variable [Facts₀]

def dot_S200x10000_S10000x128_S200x128_1_0_0_1_n_n : DotDims S200x10000 S10000x128 S200x128 where
  lhsContracting := [1]
  rhsContracting := [0]
  lhsNonContracting := [0]
  rhsNonContracting := [1]
  lhsBatch := []
  rhsBatch := []
  wf := dot_S200x10000_S10000x128_S200x128_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S200x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S200x10000.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S400x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩

abbrev nBuf : Space → Nat
  | .hbm => 3
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  dot_S10000x10000_S10000x128_S10000x128_1_0_0_1_n_n_wf : DotDims.WF S10000x10000 S10000x128 S10000x128 [1] [0] [0] [1] [] []

variable [Facts₀]

def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.BitsBlocks.lean ====
/-
  The blocks one grid step works on, and what it leaves in the output block.

  Step t of the 25 stages all of x (window 0), rows 400 t … 400 t + 199 of adj (window 1), rows 400 t + 200 … 400 t + 399
  of adj (window 2), and writes back rows 400 t … 400 t + 399 of the result (window 3).  The body stores the product of
  the first row block with x into rows 0 … 199 of the output block and the product of the second row block with x into
  rows 200 … 399: two stores that tile the block, so what the block holds afterwards is a function of the three input
  blocks alone.  adj is handed to the kernel twice; its buffer is therefore held at two half shares, one per window,
  which is enough because both windows only read it.
-/
import proofs.«173570_g72181220376619_cont_9to1c4b_815_14_alg».proof.Proof.Gen.Kernel.Launch
import proofs.«173570_g72181220376619_cont_9to1c4b_815_14_alg».proof.Proof.Gen.Kernel.Skeleton
import proofs.«173570_g72181220376619_cont_9to1c4b_815_14_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Rows

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays when the region is entered -/

/-- The program is the region alone, so the region finds every buffer as launched. -/
abbrev atEntry (c : Dev nD) (b : Ref sig .tc) : Buf (Elt F) ((c : Thread nD τ).loc b) := m ((c : Thread nD τ).loc b)

theorem main_is_region (𝒱₀ : Variants) :
    Pipeline.HMain (Ix := Unit) (Name := ℕ) (U := UR sig nD τ) (Lvl := ℕ) cfgs 0 defs₀ 𝒱₀ m (main (F := F)) (atEntry m) :=
  Pipeline.hmain_region cfgs 0 defs₀ 𝒱₀ m main fun c => (main_chain c).trans rfl

/-! ## A window's block at a grid step -/

/-- Window `w`'s block at step `t`, read off its array as the region finds it. -/
def inBlock (c : Dev nD) (w : Fin cfg0.W) (t : Fin cfg0.N) : ((cfg0.win w).xblock (cfg0.grid.coords t)).Idx → Elt F (cfg0.win w).elt :=
  ((cfg0.win w).blk t).view.read (Elt F) (atEntry m c (Pipeline.arrRef spec0 w))

/-- An input window whose body leaves the block in place holds its block at every step, fetched there or not:
    when it is not fetched its block index has not moved.  Window 0 (all of x, fetched once); -/
theorem found0_of {c : Dev nD} (dat : Dat τ (Elt F) Unit ℕ (UR sig nD τ) ℕ cfg0 c) (hA : dat.A 0 = atEntry m c (Pipeline.arrRef spec0 0))
    (hafter : ∀ t, dat.after 0 t = inBlock m c 0 t) (t : Fin cfg0.N) (d) : dat.before 0 t d = inBlock m c 0 t :=
  (dat.before_in_eq_fetched 0 rfl (fun _ => rfl) (fun _ _ _ => rfl) (fun t => by rw [hafter]; unfold Dat.blockOf inBlock; rw [hA]; try rfl) t d).trans
    (by unfold Dat.fetched Dat.blockOf inBlock; rw [hA]; try rfl)
/-- window 1 (the even row block of adj); -/
theorem found1_of {c : Dev nD} (dat : Dat τ (Elt F) Unit ℕ (UR sig nD τ) ℕ cfg0 c) (hA : dat.A 1 = atEntry m c (Pipeline.arrRef spec0 1))
    (hafter : ∀ t, dat.after 1 t = inBlock m c 1 t) (t : Fin cfg0.N) (d) : dat.before 1 t d = inBlock m c 1 t :=
  (dat.before_in_eq_fetched 1 rfl (fun _ => rfl) (fun _ _ _ => rfl) (fun t => by rw [hafter]; unfold Dat.blockOf inBlock; rw [hA]; try rfl) t d).trans
    (by unfold Dat.fetched Dat.blockOf inBlock; rw [hA]; try rfl)
/-- window 2 (the odd row block of adj). -/
theorem found2_of {c : Dev nD} (dat : Dat τ (Elt F) Unit ℕ (UR sig nD τ) ℕ cfg0 c) (hA : dat.A 2 = atEntry m c (Pipeline.arrRef spec0 2))
    (hafter : ∀ t, dat.after 2 t = inBlock m c 2 t) (t : Fin cfg0.N) (d) : dat.before 2 t d = inBlock m c 2 t :=
  (dat.before_in_eq_fetched 2 rfl (fun _ => rfl) (fun _ _ _ => rfl) (fun t => by rw [hafter]; unfold Dat.blockOf inBlock; rw [hA]; try rfl) t d).trans
    (by unfold Dat.fetched Dat.blockOf inBlock; rw [hA]; try rfl)

/-! ## The body's rectangles -/

/-- All of the x block, all of an adj row block, and the two halves of the output block. -/
abbrev allX : Rect S10000x128 := Rect.unit (s := S10000x128) ![0, 0] S10000x128.size inb_S10000x128_S10000x128_0_0
abbrev allRows : Rect S200x10000 := Rect.unit (s := S200x10000) ![0, 0] S200x10000.size inb_S200x10000_S200x10000_0_0
abbrev upper : Rect S400x128 := Rect.unit (s := S400x128) ![0, 0] S200x128.size inb_S400x128_S200x128_0_0
abbrev lower : Rect S400x128 := Rect.unit (s := S400x128) ![200, 0] S200x128.size inb_S400x128_S200x128_200_0

/-! ## What a step leaves in the output block -/

/-- The output block after the body, from the three input blocks: the second store (rows 200 … 399, the odd row
    block times x) over the first (rows 0 … 199, the even row block times x). -/
def outBlock (x : Vec F S10000x128 .f32) (a₁ a₂ : Vec F S200x10000 .f32) : Vec F S400x128 .f32 :=
  View.canon [⟨lower, k0_pay2 (View.ld a₂ allRows) (View.ld x allX)⟩, ⟨upper, k0_pay1 (View.ld a₁ allRows) (View.ld x allX)⟩]

/-- The two stores tile the block. -/
theorem halves_cover (p₂ : lower.shape.Idx → Elt F .f32) (p₁ : upper.shape.Idx → Elt F .f32) (y : S400x128.Idx) :
    ∃ pc ∈ ([⟨lower, p₂⟩, ⟨upper, p₁⟩] : List (View.Piece (Elt F) S400x128 .f32)), y ∈ pc.1.set :=
  View.cover_of_tiled [⟨lower, p₂⟩, ⟨upper, p₁⟩] S200x128.size (by rfl) y

/-! ## The proof data of the one region -/

/-- On core `c`: the arrays as the region finds them; after the body at step `t` each input's buffer still at its block
    and the output's at `outBlock` of the three; between steps only the scoped buffers that are no staging buffer;
    nothing owed; x at the full share, adj at one half per window. -/
def data (_ : Fin 1) (c : Dev nD) : Dat τ (Elt F) Unit ℕ (UR sig nD τ) ℕ cfg0 c where
  A w := atEntry m c (Pipeline.arrRef spec0 w)
  after w t := match w with
    | ⟨0, _⟩ => inBlock m c 0 t
    | ⟨1, _⟩ => inBlock m c 1 t
    | ⟨2, _⟩ => inBlock m c 2 t
    | ⟨3, _⟩ => outBlock (inBlock m c 0 t) (inBlock m c 1 t) (inBlock m c 2 t)
  Φ _ := Pipeline.scopedRest (Ix := Unit) (Name := ℕ) (U := UR sig nD τ) (Lvl := ℕ) (Val := Elt F) spec0 c
  q w := match w with
    | ⟨0, _⟩ => fullShare
    | ⟨1, _⟩ => fullShare.left
    | ⟨2, _⟩ => fullShare.right
    | ⟨3, _⟩ => fullShare
  owed _ := 0

theorem entry_eq (c : Dev nD) (w : Fin cfg0.W) : (data m 0 c).A w = atEntry m c (Pipeline.arrRef spec0 w) := by
  dsimp only [data]

theorem after0 (c : Dev nD) (t : Fin cfg0.N) : (data m 0 c).after 0 t = inBlock m c 0 t := by dsimp only [data]
theorem after1 (c : Dev nD) (t : Fin cfg0.N) : (data m 0 c).after 1 t = inBlock m c 1 t := by dsimp only [data]
theorem after2 (c : Dev nD) (t : Fin cfg0.N) : (data m 0 c).after 2 t = inBlock m c 2 t := by dsimp only [data]
theorem after3 (c : Dev nD) (t : Fin cfg0.N) :
    (data m 0 c).after 3 t = outBlock (inBlock m c 0 t) (inBlock m c 1 t) (inBlock m c 2 t) := by dsimp only [data]

theorem found0 (c : Dev nD) (t : Fin cfg0.N) (d) : (data m 0 c).before 0 t d = inBlock m c 0 t :=
  found0_of m (data m 0 c) (entry_eq m c 0) (after0 m c) t d
theorem found1 (c : Dev nD) (t : Fin cfg0.N) (d) : (data m 0 c).before 1 t d = inBlock m c 1 t :=
  found1_of m (data m 0 c) (entry_eq m c 1) (after1 m c) t d
theorem found2 (c : Dev nD) (t : Fin cfg0.N) (d) : (data m 0 c).before 2 t d = inBlock m c 2 t :=
  found2_of m (data m 0 c) (entry_eq m c 2) (after2 m c) t d

end Cert.Kernel.Rows

end
-- ==== Proof.BitsRun.lean ====
/-
  The kernel's run: every grid step's body, and the launch of the whole grid.

  One step: with x's block, the two row blocks of adj and the output block staged, the body reads the three inputs,
  stores the two products into the two halves of the output block and touches nothing else; the output block then
  holds `outBlock` of the inputs, because the two stores tile it.
  The launch: adj's buffer is one buffer behind two windows.  Held whole at the full share when the region is
  entered, it is split into its left and right halves, one per window; each window only reads, so a half suffices, and
  the two halves are the whole again when the region ends.  Every argument array is an input window's array, never
  written back, so the arguments end as they started; the result's array ends as the write-backs of the 25 steps left it.
-/
import proofs.«173570_g72181220376619_cont_9to1c4b_815_14_alg».proof.Proof.BitsBlocks

set_option maxRecDepth 16384

noncomputable section

namespace Cert.Kernel.Rows

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## One step's body -/

set_option maxHeartbeats 1000000 in
/-- On whole staging buffers, the inputs' reading `x`, `a₁`, `a₂` and the output's holding anything, the body runs
    to the continuation with the inputs as they were and the output block at `outBlock x a₁ a₂`. -/
theorem body_triple (c : Dev nD) (E : Set ℕ) (i : grid0.Coords)
    (arg1 : Memref sig .tc .vmem S10000x128 .f32) (harg1 : arg1.IsWhole)
    (arg2 : Memref sig .tc .vmem S200x10000 .f32) (harg2 : arg2.IsWhole)
    (arg3 : Memref sig .tc .vmem S200x10000 .f32) (harg3 : arg3.IsWhole)
    (arg4 : Memref sig .tc .vmem S400x128 .f32) (harg4 : arg4.IsWhole)
    (x : Vec F S10000x128 .f32) (a₁ a₂ : Vec F S200x10000 .f32) (K : PUnit → sProp 𝕄) :
    iprop(owns (c : Thread nD τ) arg1 fullShare x ∗ owns (c : Thread nD τ) arg2 fullShare a₁ ∗ owns (c : Thread nD τ) arg3 fullShare a₂
        ∗ (∃ d, owns (c : Thread nD τ) arg4 fullShare d)
        ∗ (iprop(owns (c : Thread nD τ) arg1 fullShare x ∗ owns (c : Thread nD τ) arg2 fullShare a₁ ∗ owns (c : Thread nD τ) arg3 fullShare a₂
            ∗ owns (c : Thread nD τ) arg4 fullShare (outBlock x a₁ a₂)) -∗ K ⟨⟩))
      ⊢ wp frame (wpE (defs₀ (F := F)) Variants.none c none) E (cc0__matmul_block i arg1 harg1 arg2 harg2 arg3 harg3 arg4 harg4) K := by
  simp only [cc0__matmul_block_eq_skeleton]; unfold cc0__matmul_block_skel
  unfold owns
  iintro ⟨⟨%f1, %hf1, H1⟩, ⟨%f2, %hf2, H2⟩, ⟨%f3, %hf3, H3⟩, ⟨%d4, %f4, -, H4⟩, Hk⟩
  subst hf1 hf2 hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (halves_cover _ _)

/-! ## The body at a grid step -/

/-- What the body is called with at step `t`, window by window, -/
def stepPre (c : Dev nD) (t : Fin cfg0.N) : sProp 𝕄 :=
  iprop((data m 0 c).Φ t.castSucc ∗ (data m 0 c).owesAt () t.castSucc
    ∗ (∃ d, owns (c : Thread nD τ) (st0_0 t) fullShare ((data m 0 c).before 0 t d))
    ∗ (∃ d, owns (c : Thread nD τ) (st0_1 t) fullShare ((data m 0 c).before 1 t d))
    ∗ (∃ d, owns (c : Thread nD τ) (st0_2 t) fullShare ((data m 0 c).before 2 t d))
    ∗ (∃ d, owns (c : Thread nD τ) (st0_3 t) fullShare ((data m 0 c).before 3 t d)))

/-- and what it returns. -/
def stepPost (c : Dev nD) (t : Fin cfg0.N) : sProp 𝕄 :=
  iprop((data m 0 c).Φ t.succ ∗ (data m 0 c).owesAt () t.succ
    ∗ owns (c : Thread nD τ) (st0_0 t) fullShare ((data m 0 c).after 0 t)
    ∗ owns (c : Thread nD τ) (st0_1 t) fullShare ((data m 0 c).after 1 t)
    ∗ owns (c : Thread nD τ) (st0_2 t) fullShare ((data m 0 c).after 2 t)
    ∗ owns (c : Thread nD τ) (st0_3 t) fullShare ((data m 0 c).after 3 t))

/-- At any step the input buffers hold their blocks, so `body_triple` applies; what is held between steps passes
    through unread. -/
theorem step_sound (c : Dev nD) (t : Fin cfg0.N) :
    stepPre m c t ⊢ wp frame (wpE (defs₀ (F := F)) Variants.none c none) Set.univ (bodyAt0 t) (fun _ => stepPost m c t) := by
  unfold stepPre stepPost bodyAt0
  simp only [found0, found1, found2]
  rw [show (data m 0 c).Φ t.succ = (data m 0 c).Φ t.castSucc from rfl,
    show (data m 0 c).owesAt () t.succ = (data m 0 c).owesAt () t.castSucc from rfl,
    after0, after1, after2, after3]
  iintro ⟨HΦ, Ho, ⟨%d0, H0⟩, ⟨%d1, H1⟩, ⟨%d2, H2⟩, ⟨%d3, H3⟩⟩
  iapply (body_triple c Set.univ _ _ _ _ _ _ _ _ _ (inBlock m c 0 t) (inBlock m c 1 t) (inBlock m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every step. -/
theorem body_obligation (c : Dev nD) : BodyObligation (data (F := F) m 0 c) (defs₀ (F := F)) Variants.none () Set.univ := fun t => by
  rw [bigSep_W0, bigSep_W0]
  exact step_sound m c t

/-! ## adj's buffer dealt to its two windows -/

/-- The buffers behind the four windows' arrays are three. -/
theorem three_buffers : Finset.univ.image (Pipeline.arrRef spec0) = [main_arg0, main_arg1, main_v0].toFinset := by decide

/-- The three buffers, each whole at the full share at the entry contents, are the four windows' arrays at the
    shares the proof data names: x's and the result's outright, adj's split into its two halves. -/
theorem deal_arrays (c : Dev nD) :
    (Pipeline.arrBufs (Ix := Unit) (Name := ℕ) (U := UR sig nD τ) (Lvl := ℕ) spec0 c (atEntry m c) : sProp 𝕄)
      ⊢ (data m 0 c).arrays ((data m 0 c).arrAt · 0) := by
  unfold Pipeline.arrBufs Dat.arrays
  rw [bigSep_eq_bigSepL_of_eq [main_arg0, main_arg1, main_v0] three_buffers (by decide), bigSep_W0]
  rw [(arr_whole0 0).set_eq_univ, (arr_whole0 1).set_eq_univ, (arr_whole0 3).set_eq_univ]
  show iprop(((c.tc : Thread nD τ).loc main_arg0 ↦{fullShare} atEntry m c main_arg0) ∗ ((c.tc : Thread nD τ).loc main_arg1 ↦{fullShare} atEntry m c main_arg1)
        ∗ ((c.tc : Thread nD τ).loc main_v0 ↦{fullShare} atEntry m c main_v0))
    ⊢ iprop(((c.tc : Thread nD τ).loc main_arg0 ↦{fullShare} atEntry m c main_arg0)
        ∗ ((c.tc : Thread nD τ).loc main_arg1 ↦{fullShare.left} atEntry m c main_arg1)
        ∗ ((c.tc : Thread nD τ).loc main_arg1 ↦{fullShare.right} atEntry m c main_arg1)
        ∗ ((c.tc : Thread nD τ).loc main_v0 ↦{fullShare} atEntry m c main_v0))
  iintro ⟨H0, H1, H3⟩
  ihave H := (pointsTo_share (PosShare.mem_left_op_right fullShare)).1 $$ H1
  icases H with ⟨H1a, H1b⟩
  isplitl [H0]; · iexact H0
  isplitl [H1a]; · iexact H1a
  isplitl [H1b]; · iexact H1b
  iexact H3

/-! ## The run -/

/-- Between steps the proof data holds only the scoped buffers that are no staging buffer. -/
theorem between_steps (c : Dev nD) (t : Fin (cfg0.N + 1)) :
    (data m 0 c).Φ t = Pipeline.scopedRest (Ix := Unit) (Name := ℕ) (U := UR sig nD τ) (Lvl := ℕ) (Val := Elt F) spec0 c := rfl

set_option backward.isDefEq.respectTransparency.types false in
/-- From any memory with zero counters every weakly fair execution of the program terminates, and at the end every
    window's array holds what the write-backs of the 25 steps make of its entry contents (an input's: its entry
    contents), every other unscoped buffer what it held at entry. -/
theorem run : θ_run defs (onTc (τ := τ) (main (F := F))) (s₀ m ρ) (Pipeline.FramePost cfgs (data m) 0 (atEntry m)) := by
  classical
  exact Pipeline.θ_run_region_noSem_shared cfgs (data m) () cellOf_inj (0 : Fin 1) winFacts₀0 emb₁ defs₀ Variants.none m ρ main
    (hbody := fun c => (body_obligation m c).loose) (hne := block_pos0) (harr := arr_whole0) (hstage := stage_whole0)
    (howed := fun _ _ => rfl)
    (u₀ := initOf (Pipeline.cells cfgs cellOf_inj) (Pipeline.launchToks cfgs cellOf_inj)) (hu₀ := .rfl)
    (V := atEntry m) (hmain := main_is_region m Variants.none)
    (hsplit := deal_arrays m)
    (X := fun _ => iprop(emp)) (Y := fun _ => iprop(emp))
    (Z := fun c => Pipeline.unscopedRest (Ix := Unit) (Name := ℕ) (U := UR sig nD τ) (Lvl := ℕ) spec0 c (atEntry m c))
    (hX := fun c => by
      iintro H
      isplitr; · iempintro
      iexact H)
    (hin := fun c => by
      rw [between_steps]
      iintro ⟨-, H⟩
      iexact H)
    (hout := fun c => by
      rw [between_steps]
      iintro H
      isplitr; · iempintro
      iexact H)
    (QY := fun c s => ∀ b ∈ Pipeline.restRefs sig spec0, s.mem ((c.tc : Thread nD τ).loc b) = atEntry m c b)
    (hY := fun c s' => by
      iintro ⟨-, HU, HSI⟩
      unfold Pipeline.unscopedRest
      imodintro
      iapply (pointsTo_read_all (Pipeline.restRefs sig spec0) (fun b => (c.tc : Thread nD τ).loc b) (atEntry m c) s')
      isplitl [HU] <;> iassumption)
    (hQ := fun s h c => ⟨(h c).1, (h c).2⟩)

/-- The arguments end as they were launched: each is an input window's array, which no write-back touches. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 0).trans (((data m 0 c).arrAt_in 0 rfl _).trans (entry_eq m c 0)),
      ((h c).1 1).trans (((data m 0 c).arrAt_in 1 rfl _).trans (entry_eq m c 1))⟩) (run m ρ)

end Cert.Kernel.Rows

end
-- ==== Proof.IdealBlocks.lean ====
/-
  The blocks one grid step works on, and what it leaves in the output block.

  Step t of the 25 stages all of x (window 0), rows 400 t … 400 t + 199 of adj (window 1), rows 400 t + 200 … 400 t + 399
  of adj (window 2), and writes back rows 400 t … 400 t + 399 of the result (window 3).  The body stores the product of
  the first row block with x into rows 0 … 199 of the output block and the product of the second row block with x into
  rows 200 … 399: two stores that tile the block, so what the block holds afterwards is a function of the three input
  blocks alone.  adj is handed to the kernel twice; its buffer is therefore held at two half shares, one per window,
  which is enough because both windows only read it.
-/
import proofs.«173570_g72181220376619_cont_9to1c4b_815_14_alg».proof.Proof.Gen.KernelIdeal.Launch
import proofs.«173570_g72181220376619_cont_9to1c4b_815_14_alg».proof.Proof.Gen.KernelIdeal.Skeleton
import proofs.«173570_g72181220376619_cont_9to1c4b_815_14_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Rows

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays when the region is entered -/

/-- The program is the region alone, so the region finds every buffer as launched. -/
abbrev atEntry (c : Dev nD) (b : Ref sig .tc) : Buf (Elt F) ((c : Thread nD τ).loc b) := m ((c : Thread nD τ).loc b)

theorem main_is_region (𝒱₀ : Variants) :
    Pipeline.HMain (Ix := Unit) (Name := ℕ) (U := UR sig nD τ) (Lvl := ℕ) cfgs 0 defs₀ 𝒱₀ m (main (F := F)) (atEntry m) :=
  Pipeline.hmain_region cfgs 0 defs₀ 𝒱₀ m main fun c => (main_chain c).trans rfl

/-! ## A window's block at a grid step -/

/-- Window `w`'s block at step `t`, read off its array as the region finds it. -/
def inBlock (c : Dev nD) (w : Fin cfg0.W) (t : Fin cfg0.N) : ((cfg0.win w).xblock (cfg0.grid.coords t)).Idx → Elt F (cfg0.win w).elt :=
  ((cfg0.win w).blk t).view.read (Elt F) (atEntry m c (Pipeline.arrRef spec0 w))

/-- An input window whose body leaves the block in place holds its block at every step, fetched there or not:
    when it is not fetched its block index has not moved.  Window 0 (all of x, fetched once); -/
theorem found0_of {c : Dev nD} (dat : Dat τ (Elt F) Unit ℕ (UR sig nD τ) ℕ cfg0 c) (hA : dat.A 0 = atEntry m c (Pipeline.arrRef spec0 0))
    (hafter : ∀ t, dat.after 0 t = inBlock m c 0 t) (t : Fin cfg0.N) (d) : dat.before 0 t d = inBlock m c 0 t :=
  (dat.before_in_eq_fetched 0 rfl (fun _ => rfl) (fun _ _ _ => rfl) (fun t => by rw [hafter]; unfold Dat.blockOf inBlock; rw [hA]; try rfl) t d).trans
    (by unfold Dat.fetched Dat.blockOf inBlock; rw [hA]; try rfl)
/-- window 1 (the even row block of adj); -/
theorem found1_of {c : Dev nD} (dat : Dat τ (Elt F) Unit ℕ (UR sig nD τ) ℕ cfg0 c) (hA : dat.A 1 = atEntry m c (Pipeline.arrRef spec0 1))
    (hafter : ∀ t, dat.after 1 t = inBlock m c 1 t) (t : Fin cfg0.N) (d) : dat.before 1 t d = inBlock m c 1 t :=
  (dat.before_in_eq_fetched 1 rfl (fun _ => rfl) (fun _ _ _ => rfl) (fun t => by rw [hafter]; unfold Dat.blockOf inBlock; rw [hA]; try rfl) t d).trans
    (by unfold Dat.fetched Dat.blockOf inBlock; rw [hA]; try rfl)
/-- window 2 (the odd row block of adj). -/
theorem found2_of {c : Dev nD} (dat : Dat τ (Elt F) Unit ℕ (UR sig nD τ) ℕ cfg0 c) (hA : dat.A 2 = atEntry m c (Pipeline.arrRef spec0 2))
    (hafter : ∀ t, dat.after 2 t = inBlock m c 2 t) (t : Fin cfg0.N) (d) : dat.before 2 t d = inBlock m c 2 t :=
  (dat.before_in_eq_fetched 2 rfl (fun _ => rfl) (fun _ _ _ => rfl) (fun t => by rw [hafter]; unfold Dat.blockOf inBlock; rw [hA]; try rfl) t d).trans
    (by unfold Dat.fetched Dat.blockOf inBlock; rw [hA]; try rfl)

/-! ## The body's rectangles -/

/-- All of the x block, all of an adj row block, and the two halves of the output block. -/
abbrev allX : Rect S10000x128 := Rect.unit (s := S10000x128) ![0, 0] S10000x128.size inb_S10000x128_S10000x128_0_0
abbrev allRows : Rect S200x10000 := Rect.unit (s := S200x10000) ![0, 0] S200x10000.size inb_S200x10000_S200x10000_0_0
abbrev upper : Rect S400x128 := Rect.unit (s := S400x128) ![0, 0] S200x128.size inb_S400x128_S200x128_0_0
abbrev lower : Rect S400x128 := Rect.unit (s := S400x128) ![200, 0] S200x128.size inb_S400x128_S200x128_200_0

/-! ## What a step leaves in the output block -/

/-- The output block after the body, from the three input blocks: the second store (rows 200 … 399, the odd row
    block times x) over the first (rows 0 … 199, the even row block times x). -/
def outBlock (x : Vec F S10000x128 .f32) (a₁ a₂ : Vec F S200x10000 .f32) : Vec F S400x128 .f32 :=
  View.canon [⟨lower, k0_pay2 (View.ld a₂ allRows) (View.ld x allX)⟩, ⟨upper, k0_pay1 (View.ld a₁ allRows) (View.ld x allX)⟩]

/-- The two stores tile the block. -/
theorem halves_cover (p₂ : lower.shape.Idx → Elt F .f32) (p₁ : upper.shape.Idx → Elt F .f32) (y : S400x128.Idx) :
    ∃ pc ∈ ([⟨lower, p₂⟩, ⟨upper, p₁⟩] : List (View.Piece (Elt F) S400x128 .f32)), y ∈ pc.1.set :=
  View.cover_of_tiled [⟨lower, p₂⟩, ⟨upper, p₁⟩] S200x128.size (by rfl) y

/-! ## The proof data of the one region -/

/-- On core `c`: the arrays as the region finds them; after the body at step `t` each input's buffer still at its block
    and the output's at `outBlock` of the three; between steps only the scoped buffers that are no staging buffer;
    nothing owed; x at the full share, adj at one half per window. -/
def data (_ : Fin 1) (c : Dev nD) : Dat τ (Elt F) Unit ℕ (UR sig nD τ) ℕ cfg0 c where
  A w := atEntry m c (Pipeline.arrRef spec0 w)
  after w t := match w with
    | ⟨0, _⟩ => inBlock m c 0 t
    | ⟨1, _⟩ => inBlock m c 1 t
    | ⟨2, _⟩ => inBlock m c 2 t
    | ⟨3, _⟩ => outBlock (inBlock m c 0 t) (inBlock m c 1 t) (inBlock m c 2 t)
  Φ _ := Pipeline.scopedRest (Ix := Unit) (Name := ℕ) (U := UR sig nD τ) (Lvl := ℕ) (Val := Elt F) spec0 c
  q w := match w with
    | ⟨0, _⟩ => fullShare
    | ⟨1, _⟩ => fullShare.left
    | ⟨2, _⟩ => fullShare.right
    | ⟨3, _⟩ => fullShare
  owed _ := 0

theorem entry_eq (c : Dev nD) (w : Fin cfg0.W) : (data m 0 c).A w = atEntry m c (Pipeline.arrRef spec0 w) := by
  dsimp only [data]

theorem after0 (c : Dev nD) (t : Fin cfg0.N) : (data m 0 c).after 0 t = inBlock m c 0 t := by dsimp only [data]
theorem after1 (c : Dev nD) (t : Fin cfg0.N) : (data m 0 c).after 1 t = inBlock m c 1 t := by dsimp only [data]
theorem after2 (c : Dev nD) (t : Fin cfg0.N) : (data m 0 c).after 2 t = inBlock m c 2 t := by dsimp only [data]
theorem after3 (c : Dev nD) (t : Fin cfg0.N) :
    (data m 0 c).after 3 t = outBlock (inBlock m c 0 t) (inBlock m c 1 t) (inBlock m c 2 t) := by dsimp only [data]

theorem found0 (c : Dev nD) (t : Fin cfg0.N) (d) : (data m 0 c).before 0 t d = inBlock m c 0 t :=
  found0_of m (data m 0 c) (entry_eq m c 0) (after0 m c) t d
theorem found1 (c : Dev nD) (t : Fin cfg0.N) (d) : (data m 0 c).before 1 t d = inBlock m c 1 t :=
  found1_of m (data m 0 c) (entry_eq m c 1) (after1 m c) t d
theorem found2 (c : Dev nD) (t : Fin cfg0.N) (d) : (data m 0 c).before 2 t d = inBlock m c 2 t :=
  found2_of m (data m 0 c) (entry_eq m c 2) (after2 m c) t d

end Cert.KernelIdeal.Rows

end
-- ==== Proof.IdealRun.lean ====
/-
  The kernel's run: every grid step's body, and the launch of the whole grid.

  One step: with x's block, the two row blocks of adj and the output block staged, the body reads the three inputs,
  stores the two products into the two halves of the output block and touches nothing else; the output block then
  holds `outBlock` of the inputs, because the two stores tile it.
  The launch: adj's buffer is one buffer behind two windows.  Held whole at the full share when the region is
  entered, it is split into its left and right halves, one per window; each window only reads, so a half suffices, and
  the two halves are the whole again when the region ends.  Every argument array is an input window's array, never
  written back, so the arguments end as they started; the result's array ends as the write-backs of the 25 steps left it.
-/
import proofs.«173570_g72181220376619_cont_9to1c4b_815_14_alg».proof.Proof.IdealBlocks

set_option maxRecDepth 16384

noncomputable section

namespace Cert.KernelIdeal.Rows

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## One step's body -/

set_option maxHeartbeats 1000000 in
/-- On whole staging buffers, the inputs' reading `x`, `a₁`, `a₂` and the output's holding anything, the body runs
    to the continuation with the inputs as they were and the output block at `outBlock x a₁ a₂`. -/
theorem body_triple (c : Dev nD) (E : Set ℕ) (i : grid0.Coords)
    (arg1 : Memref sig .tc .vmem S10000x128 .f32) (harg1 : arg1.IsWhole)
    (arg2 : Memref sig .tc .vmem S200x10000 .f32) (harg2 : arg2.IsWhole)
    (arg3 : Memref sig .tc .vmem S200x10000 .f32) (harg3 : arg3.IsWhole)
    (arg4 : Memref sig .tc .vmem S400x128 .f32) (harg4 : arg4.IsWhole)
    (x : Vec F S10000x128 .f32) (a₁ a₂ : Vec F S200x10000 .f32) (K : PUnit → sProp 𝕄) :
    iprop(owns (c : Thread nD τ) arg1 fullShare x ∗ owns (c : Thread nD τ) arg2 fullShare a₁ ∗ owns (c : Thread nD τ) arg3 fullShare a₂
        ∗ (∃ d, owns (c : Thread nD τ) arg4 fullShare d)
        ∗ (iprop(owns (c : Thread nD τ) arg1 fullShare x ∗ owns (c : Thread nD τ) arg2 fullShare a₁ ∗ owns (c : Thread nD τ) arg3 fullShare a₂
            ∗ owns (c : Thread nD τ) arg4 fullShare (outBlock x a₁ a₂)) -∗ K ⟨⟩))
      ⊢ wp frame (wpE (defs₀ (F := F)) Variants.none c none) E (cc0__matmul_block i arg1 harg1 arg2 harg2 arg3 harg3 arg4 harg4) K := by
  simp only [cc0__matmul_block_eq_skeleton]; unfold cc0__matmul_block_skel
  unfold owns
  iintro ⟨⟨%f1, %hf1, H1⟩, ⟨%f2, %hf2, H2⟩, ⟨%f3, %hf3, H3⟩, ⟨%d4, %f4, -, H4⟩, Hk⟩
  subst hf1 hf2 hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (halves_cover _ _)

/-! ## The body at a grid step -/

/-- What the body is called with at step `t`, window by window, -/
def stepPre (c : Dev nD) (t : Fin cfg0.N) : sProp 𝕄 :=
  iprop((data m 0 c).Φ t.castSucc ∗ (data m 0 c).owesAt () t.castSucc
    ∗ (∃ d, owns (c : Thread nD τ) (st0_0 t) fullShare ((data m 0 c).before 0 t d))
    ∗ (∃ d, owns (c : Thread nD τ) (st0_1 t) fullShare ((data m 0 c).before 1 t d))
    ∗ (∃ d, owns (c : Thread nD τ) (st0_2 t) fullShare ((data m 0 c).before 2 t d))
    ∗ (∃ d, owns (c : Thread nD τ) (st0_3 t) fullShare ((data m 0 c).before 3 t d)))

/-- and what it returns. -/
def stepPost (c : Dev nD) (t : Fin cfg0.N) : sProp 𝕄 :=
  iprop((data m 0 c).Φ t.succ ∗ (data m 0 c).owesAt () t.succ
    ∗ owns (c : Thread nD τ) (st0_0 t) fullShare ((data m 0 c).after 0 t)
    ∗ owns (c : Thread nD τ) (st0_1 t) fullShare ((data m 0 c).after 1 t)
    ∗ owns (c : Thread nD τ) (st0_2 t) fullShare ((data m 0 c).after 2 t)
    ∗ owns (c : Thread nD τ) (st0_3 t) fullShare ((data m 0 c).after 3 t))

/-- At any step the input buffers hold their blocks, so `body_triple` applies; what is held between steps passes
    through unread. -/
theorem step_sound (c : Dev nD) (t : Fin cfg0.N) :
    stepPre m c t ⊢ wp frame (wpE (defs₀ (F := F)) Variants.none c none) Set.univ (bodyAt0 t) (fun _ => stepPost m c t) := by
  unfold stepPre stepPost bodyAt0
  simp only [found0, found1, found2]
  rw [show (data m 0 c).Φ t.succ = (data m 0 c).Φ t.castSucc from rfl,
    show (data m 0 c).owesAt () t.succ = (data m 0 c).owesAt () t.castSucc from rfl,
    after0, after1, after2, after3]
  iintro ⟨HΦ, Ho, ⟨%d0, H0⟩, ⟨%d1, H1⟩, ⟨%d2, H2⟩, ⟨%d3, H3⟩⟩
  iapply (body_triple c Set.univ _ _ _ _ _ _ _ _ _ (inBlock m c 0 t) (inBlock m c 1 t) (inBlock m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every step. -/
theorem body_obligation (c : Dev nD) : BodyObligation (data (F := F) m 0 c) (defs₀ (F := F)) Variants.none () Set.univ := fun t => by
  rw [bigSep_W0, bigSep_W0]
  exact step_sound m c t

/-! ## adj's buffer dealt to its two windows -/

/-- The buffers behind the four windows' arrays are three. -/
theorem three_buffers : Finset.univ.image (Pipeline.arrRef spec0) = [main_arg0, main_arg1, main_v0].toFinset := by decide

/-- The three buffers, each whole at the full share at the entry contents, are the four windows' arrays at the
    shares the proof data names: x's and the result's outright, adj's split into its two halves. -/
theorem deal_arrays (c : Dev nD) :
    (Pipeline.arrBufs (Ix := Unit) (Name := ℕ) (U := UR sig nD τ) (Lvl := ℕ) spec0 c (atEntry m c) : sProp 𝕄)
      ⊢ (data m 0 c).arrays ((data m 0 c).arrAt · 0) := by
  unfold Pipeline.arrBufs Dat.arrays
  rw [bigSep_eq_bigSepL_of_eq [main_arg0, main_arg1, main_v0] three_buffers (by decide), bigSep_W0]
  rw [(arr_whole0 0).set_eq_univ, (arr_whole0 1).set_eq_univ, (arr_whole0 3).set_eq_univ]
  show iprop(((c.tc : Thread nD τ).loc main_arg0 ↦{fullShare} atEntry m c main_arg0) ∗ ((c.tc : Thread nD τ).loc main_arg1 ↦{fullShare} atEntry m c main_arg1)
        ∗ ((c.tc : Thread nD τ).loc main_v0 ↦{fullShare} atEntry m c main_v0))
    ⊢ iprop(((c.tc : Thread nD τ).loc main_arg0 ↦{fullShare} atEntry m c main_arg0)
        ∗ ((c.tc : Thread nD τ).loc main_arg1 ↦{fullShare.left} atEntry m c main_arg1)
        ∗ ((c.tc : Thread nD τ).loc main_arg1 ↦{fullShare.right} atEntry m c main_arg1)
        ∗ ((c.tc : Thread nD τ).loc main_v0 ↦{fullShare} atEntry m c main_v0))
  iintro ⟨H0, H1, H3⟩
  ihave H := (pointsTo_share (PosShare.mem_left_op_right fullShare)).1 $$ H1
  icases H with ⟨H1a, H1b⟩
  isplitl [H0]; · iexact H0
  isplitl [H1a]; · iexact H1a
  isplitl [H1b]; · iexact H1b
  iexact H3

/-! ## The run -/

/-- Between steps the proof data holds only the scoped buffers that are no staging buffer. -/
theorem between_steps (c : Dev nD) (t : Fin (cfg0.N + 1)) :
    (data m 0 c).Φ t = Pipeline.scopedRest (Ix := Unit) (Name := ℕ) (U := UR sig nD τ) (Lvl := ℕ) (Val := Elt F) spec0 c := rfl

set_option backward.isDefEq.respectTransparency.types false in
/-- From any memory with zero counters every weakly fair execution of the program terminates, and at the end every
    window's array holds what the write-backs of the 25 steps make of its entry contents (an input's: its entry
    contents), every other unscoped buffer what it held at entry. -/
theorem run : θ_run defs (onTc (τ := τ) (main (F := F))) (s₀ m ρ) (Pipeline.FramePost cfgs (data m) 0 (atEntry m)) := by
  classical
  exact Pipeline.θ_run_region_noSem_shared cfgs (data m) () cellOf_inj (0 : Fin 1) winFacts₀0 emb₁ defs₀ Variants.none m ρ main
    (hbody := fun c => (body_obligation m c).loose) (hne := block_pos0) (harr := arr_whole0) (hstage := stage_whole0)
    (howed := fun _ _ => rfl)
    (u₀ := initOf (Pipeline.cells cfgs cellOf_inj) (Pipeline.launchToks cfgs cellOf_inj)) (hu₀ := .rfl)
    (V := atEntry m) (hmain := main_is_region m Variants.none)
    (hsplit := deal_arrays m)
    (X := fun _ => iprop(emp)) (Y := fun _ => iprop(emp))
    (Z := fun c => Pipeline.unscopedRest (Ix := Unit) (Name := ℕ) (U := UR sig nD τ) (Lvl := ℕ) spec0 c (atEntry m c))
    (hX := fun c => by
      iintro H
      isplitr; · iempintro
      iexact H)
    (hin := fun c => by
      rw [between_steps]
      iintro ⟨-, H⟩
      iexact H)
    (hout := fun c => by
      rw [between_steps]
      iintro H
      isplitr; · iempintro
      iexact H)
    (QY := fun c s => ∀ b ∈ Pipeline.restRefs sig spec0, s.mem ((c.tc : Thread nD τ).loc b) = atEntry m c b)
    (hY := fun c s' => by
      iintro ⟨-, HU, HSI⟩
      unfold Pipeline.unscopedRest
      imodintro
      iapply (pointsTo_read_all (Pipeline.restRefs sig spec0) (fun b => (c.tc : Thread nD τ).loc b) (atEntry m c) s')
      isplitl [HU] <;> iassumption)
    (hQ := fun s h c => ⟨(h c).1, (h c).2⟩)

/-- The arguments end as they were launched: each is an input window's array, which no write-back touches. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 0).trans (((data m 0 c).arrAt_in 0 rfl _).trans (entry_eq m c 0)),
      ((h c).1 1).trans (((data m 0 c).arrAt_in 1 rfl _).trans (entry_eq m c 1))⟩) (run m ρ)

end Cert.KernelIdeal.Rows

end
-- ==== Proof.LibPlainDot.lean ====
/-
  A plain matrix product read at an entry.

  A contraction whose dimension numbers say "the second axis of an [A, K] operand against the first axis of a [K, B]
  operand, no batch axis, result [A, B]" reads its left operand at (row of the result, k) and its right operand at
  (k, column of the result), `k` ranging over the one contracted axis.  So the sum over the contraction index of the
  operands' products, at result entry (p, c), is `Σ_{k < K} l (p, k) · r (k, c)`; a `tpu.matmul` into the zero splat
  is exactly that sum at the ideal values.  Generic in A, K, B and in the record: the hypotheses are the record's six lists.
-/
import Idealize.ShloMosaic.PureOps.Ideal.Laws
import Idealize.ShloMosaic.Lib.ValueIdx

noncomputable section

namespace Cert.LibPlainDot

open Idealize.ShloMosaic Idealize.ShloMosaic.ValueIdx

/-- The dimension numbers of a plain product `[A, K] × [K, B] → [A, B]`. -/
structure Plain {A K B : Nat} (D : DotDims ⟨2, ![A, K]⟩ ⟨2, ![K, B]⟩ ⟨2, ![A, B]⟩) : Prop where
  lc : D.lhsContracting = [1]
  rc : D.rhsContracting = [0]
  ln : D.lhsNonContracting = [0]
  rn : D.rhsNonContracting = [1]
  lb : D.lhsBatch = []
  rb : D.rhsBatch = []

variable {A K B : Nat} {D : DotDims ⟨2, ![A, K]⟩ ⟨2, ![K, B]⟩ ⟨2, ![A, B]⟩}

/-- One axis is contracted. -/
theorem Plain.rank (h : Plain D) : D.contr.rank = 1 := by rw [D.rank_contr, h.lc]; rfl

/-- Its extent is `K`. -/
theorem Plain.size (h : Plain D) : D.contr.size ⟨0, by rw [h.rank]; exact Nat.one_pos⟩ = K := by
  rw [D.size_contr 0 (by rw [h.lc]; exact Nat.one_pos)]
  simp only [h.lc, List.getElem_cons_zero]
  rfl

/-- The left operand is read at the result's row … -/
theorem Plain.lhs0 (h : Plain D) (j : (⟨2, ![A, B]⟩ : Shape).Idx) (q : D.contr.Idx) : (D.lhsIdx j q 0).val = (j 0).val := by
  unfold DotDims.lhsIdx
  rw [dif_neg (by rw [h.lb]; exact List.not_mem_nil), dif_pos (by rw [h.ln]; exact List.mem_singleton.mpr rfl)]
  simp only [Fin.val_cast]
  have key : ∀ (a b : Nat) (ha : a < (⟨2, ![A, B]⟩ : Shape).rank) (hb : b < (⟨2, ![A, B]⟩ : Shape).rank), a = b →
      (j ⟨a, ha⟩).val = (j ⟨b, hb⟩).val := fun a b ha hb e => by subst e; rfl
  exact key _ _ _ _ (by simp [h.lb, h.ln])

/-- … and the contraction position, -/
theorem Plain.lhs1 (h : Plain D) (j : (⟨2, ![A, B]⟩ : Shape).Idx) (q : D.contr.Idx) :
    (D.lhsIdx j q 1).val = (q ⟨0, by rw [h.rank]; exact Nat.one_pos⟩).val :=
  D.lhsIdx_val_of_single h.lc j q

/-- the right operand at the contraction position … -/
theorem Plain.rhs0 (h : Plain D) (j : (⟨2, ![A, B]⟩ : Shape).Idx) (q : D.contr.Idx) :
    (D.rhsIdx j q 0).val = (q ⟨0, by rw [h.rank]; exact Nat.one_pos⟩).val :=
  D.rhsIdx_val_of_single h.rc j q

/-- … and the result's column. -/
theorem Plain.rhs1 (h : Plain D) (j : (⟨2, ![A, B]⟩ : Shape).Idx) (q : D.contr.Idx) : (D.rhsIdx j q 1).val = (j 1).val := by
  unfold DotDims.rhsIdx
  rw [dif_neg (by rw [h.rb]; exact List.not_mem_nil), dif_pos (by rw [h.rn]; exact List.mem_singleton.mpr rfl)]
  simp only [Fin.val_cast]
  have key : ∀ (a b : Nat) (ha : a < (⟨2, ![A, B]⟩ : Shape).rank) (hb : b < (⟨2, ![A, B]⟩ : Shape).rank), a = b →
      (j ⟨a, ha⟩).val = (j ⟨b, hb⟩).val := fun a b ha hb e => by subst e; rfl
  exact key _ _ _ _ (by simp [h.lb, h.ln, h.rn])

/-- The contraction sum at result entry `(p, c)` is `Σ_k l (p, k) · r (k, c)`. -/
theorem Plain.sum_eq (h : Plain D) (l : (⟨2, ![A, K]⟩ : Shape).Idx → EReal) (r : (⟨2, ![K, B]⟩ : Shape).Idx → EReal)
    (p : Fin A) (c : Fin B) :
    ∑ q : D.contr.Idx, l (D.lhsIdx (ix2 p c) q) * r (D.rhsIdx (ix2 p c) q) = ∑ k : Fin K, l (ix2 p k) * r (ix2 k c) := by
  rw [← Equiv.sum_comp (contrEquiv1 D K h.rank h.size).symm]
  refine Finset.sum_congr rfl fun k _ => ?_
  have hk := contrEquiv1_symm_val D K h.rank h.size k
  have el : D.lhsIdx (ix2 p c) ((contrEquiv1 D K h.rank h.size).symm k) = ix2 p k := funext fun a => Fin.ext (by
    match a with
    | ⟨0, _⟩ => exact h.lhs0 _ _
    | ⟨1, _⟩ => exact (h.lhs1 _ _).trans hk)
  have er : D.rhsIdx (ix2 p c) ((contrEquiv1 D K h.rank h.size).symm k) = ix2 k c := funext fun a => Fin.ext (by
    match a with
    | ⟨0, _⟩ => exact (h.rhs0 _ _).trans hk
    | ⟨1, _⟩ => exact h.rhs1 _ _)
  rw [el, er]

/-- A `tpu.matmul` of such dimension numbers into the zero accumulator, at the ideal values, read at `(p, c)`. -/
theorem Plain.matmul_zero_apply (h : Plain D) (prec : Option ContractPrecision)
    (l : FVec Ideal ⟨2, ![A, K]⟩ .f32) (r : FVec Ideal ⟨2, ![K, B]⟩ .f32) (p : Fin A) (c : Fin B) :
    FloatOps.matmul D prec l r (constant ⟨2, ![A, B]⟩ .f32 0x00000000#32) (ix2 p c) = ∑ k : Fin K, l (ix2 p k) * r (ix2 k c) :=
  (Ideal.matmul_constant_zero_apply D prec l r (ix2 p c)).trans (h.sum_eq l r p c)

/-- A host `dot_general` of such dimension numbers, at the ideal values, read at `(p, c)`. -/
theorem Plain.dotGeneral_apply (h : Plain D) (prec : Option ContractPrecision) (sched : HostSchedule)
    (l : FVec Ideal ⟨2, ![A, K]⟩ .f32) (r : FVec Ideal ⟨2, ![K, B]⟩ .f32) (p : Fin A) (c : Fin B) :
    FloatOps.dotGeneral D prec sched l r (ix2 p c) = ∑ k : Fin K, l (ix2 p k) * r (ix2 k c) :=
  (Ideal.dotGeneral_apply D prec sched l r (ix2 p c)).trans (h.sum_eq l r p c)

end Cert.LibPlainDot

end
-- ==== Proof.Product.lean ====
/-
  The product of the two argument arrays, entry by entry.

  For x of shape [10000, 128] and adj of shape [10000, 10000], entry (r, c) of adj · x is the sum over k < 10000 of
  adj (r, k) · x (k, c).  On the extended reals a finite sum is a sum in any order, so this one formula is what
  both programs compute, however the rows are tiled; no entry need be finite.
-/
import Idealize.ShloMosaic.PureOps.Ideal.Laws
import Idealize.ShloMosaic.Lib.ValueIdx

noncomputable section

namespace Cert.Product

open Idealize.ShloMosaic Idealize.ShloMosaic.ValueIdx

/-- adj · x at an entry: row `i 0` of adj against column `i 1` of x. -/
def rowsTimes (x : FVec Ideal ⟨2, ![10000, 128]⟩ .f32) (adj : FVec Ideal ⟨2, ![10000, 10000]⟩ .f32) :
    FVec Ideal ⟨2, ![10000, 128]⟩ .f32 :=
  fun i => ∑ k : Fin 10000, adj (ix2 (i 0) k) * x (ix2 k (i 1))

end Cert.Product

end
-- ==== Proof.IdealValue.lean ====
/-
  What the idealized kernel's result array holds after the run: the product adj · x, entry by entry.

  Step t stages rows 400 t … 400 t + 199 of adj in window 1 and rows 400 t + 200 … 400 t + 399 in window 2, with all of
  x in window 0.  Each half of the output block is one contraction into the zero accumulator, so at the ideal values
  row p of the upper half, column c, is Σ_k adj (400 t + p, k) · x (k, c), and row p of the lower half is
  Σ_k adj (400 t + 200 + p, k) · x (k, c): the output block at step t is block t of adj · x.  The 25 blocks of 400 rows
  tile the 10000 rows, so the array the write-backs leave is adj · x.
-/
import proofs.«173570_g72181220376619_cont_9to1c4b_815_14_alg».proof.Proof.IdealRun
import proofs.«173570_g72181220376619_cont_9to1c4b_815_14_alg».proof.Proof.LibPlainDot
import proofs.«173570_g72181220376619_cont_9to1c4b_815_14_alg».proof.Proof.Product
import Idealize.ShloMosaic.Lib.Pipeline.Value
import Idealize.ShloMosaic.Lib.ValueIdx

set_option maxRecDepth 16384

noncomputable section

namespace Cert.KernelIdeal.Rows

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.Product Cert.LibPlainDot

variable (m : (ℓ : Loc nD τ sig) → Buf (Elt Ideal) ℓ) (ρ : Dev nD → PrngReg)

/-! ## One half of the output block at an entry -/

/-- The body's contraction takes the second axis of a [200, 10000] block against the first axis of the [10000, 128] block. -/
theorem plain_product : Plain (A := 200) (K := 10000) (B := 128) dot_S200x10000_S10000x128_S200x128_1_0_0_1_n_n :=
  ⟨rfl, rfl, rfl, rfl, rfl, rfl⟩

/-- The first store's payload at (p, c): the sum over k of the row block at (p, k) times the x block at (k, c). -/
theorem upper_payload (a : Vec Ideal S200x10000 .f32) (x : Vec Ideal S10000x128 .f32) (p : Fin 200) (c : Fin 128) :
    k0_pay1 (F := Ideal) a x (ix2 p c) = ∑ k : Fin 10000, a (ix2 p k) * x (ix2 k c) :=
  plain_product.matmul_zero_apply none a x p c

/-- The second store's likewise. -/
theorem lower_payload (a : Vec Ideal S200x10000 .f32) (x : Vec Ideal S10000x128 .f32) (p : Fin 200) (c : Fin 128) :
    k0_pay2 (F := Ideal) a x (ix2 p c) = ∑ k : Fin 10000, a (ix2 p k) * x (ix2 k c) :=
  plain_product.matmul_zero_apply none a x p c

/-- Rows of adj read through an embedding `eA` of the row block and x read through an embedding `eX` of its block:
    when row p of the row block is row `i 0` of adj, columns kept, and the x block is x itself read at column `i 1`,
    the contraction at (p, c) is entry `i` of adj · x. -/
theorem half_entry (X : FVec Ideal S10000x128 .f32) (A : FVec Ideal S10000x10000 .f32)
    (eA : S200x10000.Idx → S10000x10000.Idx) (eX : S10000x128.Idx → S10000x128.Idx) (i : S10000x128.Idx)
    (p : Fin 200) (c : Fin 128)
    (hA0 : ∀ k : Fin 10000, (eA (ix2 p k) 0).val = (i 0).val) (hA1 : ∀ k : Fin 10000, (eA (ix2 p k) 1).val = k.val)
    (hX0 : ∀ k : Fin 10000, (eX (ix2 k c) 0).val = k.val) (hX1 : ∀ k : Fin 10000, (eX (ix2 k c) 1).val = (i 1).val) :
    ∑ k : Fin 10000, (fun j => A (eA j)) (ix2 p k) * (fun j => X (eX j)) (ix2 k c) = rowsTimes X A i := by
  unfold rowsTimes
  refine Finset.sum_congr rfl fun k _ => ?_
  have e1 : eA (ix2 p k) = ix2 (i 0) k := funext fun a => Fin.ext (by
    match a with
    | ⟨0, _⟩ => exact hA0 k
    | ⟨1, _⟩ => exact hA1 k)
  have e2 : eX (ix2 k c) = ix2 k (i 1) := funext fun a => Fin.ext (by
    match a with
    | ⟨0, _⟩ => exact hX0 k
    | ⟨1, _⟩ => exact hX1 k)
  show A (eA (ix2 p k)) * X (eX (ix2 k c)) = _
  rw [e1, e2]
  rfl

/-! ## The block a step writes back -/

theorem zero_offsets : (![0, 0] : Fin 2 → Nat) = fun _ => 0 := funext fun a => by fin_cases a <;> rfl

/-- The printed index maps over the 25 steps: x's block index is (0, 0); the row blocks' are (2 t, 0) and (2 t + 1, 0);
    the output's is (t, 0). -/
theorem block_indices : ∀ t : Fin cfg0.N,
    win0_0.index t (0 : Fin 2) = 0 ∧ win0_0.index t (1 : Fin 2) = 0
    ∧ win0_1.index t (0 : Fin 2) = 2 * t.val ∧ win0_1.index t (1 : Fin 2) = 0
    ∧ win0_2.index t (0 : Fin 2) = 2 * t.val + 1 ∧ win0_2.index t (1 : Fin 2) = 0
    ∧ win0_3.index t (0 : Fin 2) = t.val ∧ win0_3.index t (1 : Fin 2) = 0 :=
  (by decide +kernel : ∀ t : Fin grid0.N, _)

/-- WHAT STEP `t` WRITES BACK is block `t` of adj · x: its upper half from rows 400 t + p of adj, its lower half
    from rows 400 t + 200 + p, each against all of x. -/
theorem written_back (c : Dev nD) (t : Fin cfg0.N) :
    (data m 0 c).flushed 3 t
      = ((cfg0.win 3).blk t).view.read (Elt Ideal)
          (rowsTimes (m ((c.tc : Thread nD τ).loc main_arg0)) (m ((c.tc : Thread nD τ).loc main_arg1))) := by
  show (data m 0 c).after 3 t = _
  rw [after3]
  unfold outBlock
  obtain ⟨i00, i01, i10, i11, i20, i21, i30, i31⟩ := block_indices t
  funext y
  refine (View.canon_apply_of_pieces
    (fun y : S400x128.Idx => rowsTimes (m ((c.tc : Thread nD τ).loc main_arg0)) (m ((c.tc : Thread nD τ).loc main_arg1))
      (((cfg0.win 3).blk t).view.emb y)) _ ?_ y (halves_cover _ _ y)).trans rfl
  intro pc hpc x
  simp only [List.mem_cons, List.not_mem_nil, or_false] at hpc
  rcases hpc with rfl | rfl
  · obtain ⟨p, q, rfl⟩ : ∃ (p : Fin 200) (q : Fin 128), x = ix2 p q := ⟨x 0, x 1, eq_ix2 x⟩
    show k0_pay2 (F := Ideal) (View.ld (inBlock m c 2 t) allRows) (View.ld (inBlock m c 0 t) allX) (ix2 p q) = _
    rw [View.ld_unit_zero (S := S200x10000) zero_offsets, View.ld_unit_zero (S := S10000x128) zero_offsets, lower_payload]
    refine half_entry _ _ (fun j => ((cfg0.win 2).blk t).view.emb j) (fun j => ((cfg0.win 0).blk t).view.emb j) _ p q ?_ ?_ ?_ ?_
    · intro k
      show win0_2.index t (0 : Fin 2) * 200 + 1 * p.val = win0_3.index t (0 : Fin 2) * 400 + 1 * (200 + 1 * p.val)
      omega
    · intro k
      show win0_2.index t (1 : Fin 2) * 10000 + 1 * k.val = k.val
      omega
    · intro k
      show win0_0.index t (0 : Fin 2) * 10000 + 1 * k.val = k.val
      omega
    · intro k
      show win0_0.index t (1 : Fin 2) * 128 + 1 * q.val = win0_3.index t (1 : Fin 2) * 128 + 1 * (0 + 1 * q.val)
      omega
  · obtain ⟨p, q, rfl⟩ : ∃ (p : Fin 200) (q : Fin 128), x = ix2 p q := ⟨x 0, x 1, eq_ix2 x⟩
    show k0_pay1 (F := Ideal) (View.ld (inBlock m c 1 t) allRows) (View.ld (inBlock m c 0 t) allX) (ix2 p q) = _
    rw [View.ld_unit_zero (S := S200x10000) zero_offsets, View.ld_unit_zero (S := S10000x128) zero_offsets, upper_payload]
    refine half_entry _ _ (fun j => ((cfg0.win 1).blk t).view.emb j) (fun j => ((cfg0.win 0).blk t).view.emb j) _ p q ?_ ?_ ?_ ?_
    · intro k
      show win0_1.index t (0 : Fin 2) * 200 + 1 * p.val = win0_3.index t (0 : Fin 2) * 400 + 1 * (0 + 1 * p.val)
      omega
    · intro k
      show win0_1.index t (1 : Fin 2) * 10000 + 1 * k.val = k.val
      omega
    · intro k
      show win0_0.index t (0 : Fin 2) * 10000 + 1 * k.val = k.val
      omega
    · intro k
      show win0_0.index t (1 : Fin 2) * 128 + 1 * q.val = win0_3.index t (1 : Fin 2) * 128 + 1 * (0 + 1 * q.val)
      omega

/-! ## The 25 blocks tile the rows -/

/-- An entry of the result is in step `t`'s block iff each coordinate is in the block's range on its axis. -/
theorem mem_block (t : Fin cfg0.N) (i : S10000x128.Idx) :
    i ∈ ((cfg0.win 3).blk t).view.set ↔ ∀ a : Fin 2, win0_3.index t a * S400x128.size a ≤ (i a).val
      ∧ (i a).val < win0_3.index t a * S400x128.size a + S400x128.size a := by
  show i ∈ ((View.whole main_v0).slice (win0_3.rect t)).set ↔ _
  rw [View.set_slice_whole, Rect.mem_set_unit]
  exact Iff.rfl

/-- Row r is in the block of step r / 400, and every step writes its block back. -/
theorem rows_covered (i : S10000x128.Idx) :
    ∃ t : Fin cfg0.N, (cfg0.win 3).flush t = true ∧ i ∈ ((cfg0.win 3).blk t).view.set := by
  have h0 : (i 0).val < 10000 := (i 0).isLt
  have h1 : (i 1).val < 128 := (i 1).isLt
  have hN : cfg0.N = 25 := N_0
  have ht : (i 0).val / 400 < cfg0.N := by rw [hN]; omega
  obtain ⟨-, -, -, -, -, -, i30, i31⟩ := block_indices ⟨(i 0).val / 400, ht⟩
  have i30' : win0_3.index ⟨(i 0).val / 400, ht⟩ (0 : Fin 2) = (i 0).val / 400 := i30
  refine ⟨⟨(i 0).val / 400, ht⟩, flush0_3 _, ?_⟩
  rw [mem_block]
  intro a
  match a with
  | ⟨0, _⟩ =>
    show win0_3.index ⟨(i 0).val / 400, ht⟩ (0 : Fin 2) * 400 ≤ (i 0).val
      ∧ (i 0).val < win0_3.index ⟨(i 0).val / 400, ht⟩ (0 : Fin 2) * 400 + 400
    omega
  | ⟨1, _⟩ =>
    show win0_3.index ⟨(i 0).val / 400, ht⟩ (1 : Fin 2) * 128 ≤ (i 1).val
      ∧ (i 1).val < win0_3.index ⟨(i 0).val / 400, ht⟩ (1 : Fin 2) * 128 + 128
    omega

/-! ## The result array, and the run read -/

/-- After the 25 write-backs the result's array is adj · x. -/
theorem result_array (c : Dev nD) :
    (data m 0 c).arrAt 3 cfg0.N
      = rowsTimes (m ((c.tc : Thread nD τ).loc main_arg0)) (m ((c.tc : Thread nD τ).loc main_arg1)) :=
  (data m 0 c).arrAt_eq_of_cover 3 _ (fun t _ => written_back m c t) rows_covered

/-- The idealized kernel's run: it ends with the result at adj · x of the launch contents and the arguments unchanged. -/
theorem run_value : θ_run defs (onTc (τ := τ) (main (F := Ideal))) ⟨m, fun _ => 0, ρ⟩ fun r => ∀ c : Dev nD,
      r.2.mem ((c.tc : Thread nD τ).loc main_v0)
          = rowsTimes (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h c).1 3).trans (result_array m c),
      ((h c).1 0).trans (((data m 0 c).arrAt_in 0 rfl _).trans (entry_eq m c 0)),
      ((h c).1 1).trans (((data m 0 c).arrAt_in 1 rfl _).trans (entry_eq m c 1))⟩) (run m ρ)

end Cert.KernelIdeal.Rows

end
-- ==== Proof.RefValue.lean ====
/-
  The reference's result, entry by entry: its one contraction of adj's second axis against x's first axis is the
  product adj · x.
-/
import proofs.«173570_g72181220376619_cont_9to1c4b_815_14_alg».proof.Proof.Gen.ReferenceIdeal.Read
import proofs.«173570_g72181220376619_cont_9to1c4b_815_14_alg».proof.Proof.Product

noncomputable section

namespace Cert.ReferenceIdeal.RefValue

open Idealize.ShloMosaic Idealize.ShloMosaic.ValueIdx Cert.ReferenceIdeal Cert.ReferenceIdeal.Read Cert.Product

/-- The reference reads adj at (row of the result, k) and x at (k, column of the result). -/
theorem reference_is_product (x : (⟨S10000x128, .f32⟩ : BufTy).Contents (Elt Ideal))
    (adj : (⟨S10000x10000, .f32⟩ : BufTy).Contents (Elt Ideal)) :
    val_main_v0 (F := Ideal) x adj = rowsTimes x adj := by
  funext i
  rw [val_main_v0_apply]
  unfold rowsTimes
  refine Finset.sum_congr rfl fun k _ => ?_
  have el : lidx_main_v0 i k = ix2 (i 0) k := funext fun a => Fin.ext (by match a with | ⟨0, _⟩ => rfl | ⟨1, _⟩ => rfl)
  have er : ridx_main_v0 i k = ix2 k (i 1) := funext fun a => Fin.ext (by match a with | ⟨0, _⟩ => rfl | ⟨1, _⟩ => rfl)
  rw [el, er]
  rfl

end Cert.ReferenceIdeal.RefValue

end
-- ==== Proof.lean ====
/-
  adj · x computed 400 rows at a time equals adj · x.

  The kernel walks the 10000 rows of adj in 25 steps.  Each step stages all of x, two consecutive blocks of 200 rows of
  adj (the same array handed to the kernel through two windows), contracts each row block with x into a zero
  accumulator, and writes the two products back as one block of 400 rows of the result.  The reference is one
  contraction of adj's second axis against x's first.  At the ideal values every entry of either result is
  Σ_{k < 10000} adj (r, k) · x (k, c), and the 25 blocks tile the rows, so the two results are equal entry by entry —
  by commutativity and associativity of the extended reals' finite sums alone: no input need be finite, and the
  precondition is never opened.
  The frames: each kernel's run ends with its arguments unchanged because both are arrays of input windows, which no
  write-back touches; adj's buffer, shared by two windows, is held by them at complementary half shares.  The reference's
  frame is its run with the result dropped.  The idealization rewrote no operation, so its conjunct is trivial.
-/
import proofs.«173570_g72181220376619_cont_9to1c4b_815_14_alg».proof.Defs
import proofs.«173570_g72181220376619_cont_9to1c4b_815_14_alg».proof.Proof.Gen.Kernel
import proofs.«173570_g72181220376619_cont_9to1c4b_815_14_alg».proof.Proof.Gen.KernelIdeal
import proofs.«173570_g72181220376619_cont_9to1c4b_815_14_alg».proof.Proof.Gen.ReferenceIdeal
import proofs.«173570_g72181220376619_cont_9to1c4b_815_14_alg».proof.Proof.Gen.Pre_finite_inputs
import proofs.«173570_g72181220376619_cont_9to1c4b_815_14_alg».proof.Proof.Gen.ReferenceIdeal.Run
import proofs.«173570_g72181220376619_cont_9to1c4b_815_14_alg».proof.Proof.BitsRun
import proofs.«173570_g72181220376619_cont_9to1c4b_815_14_alg».proof.Proof.IdealValue
import proofs.«173570_g72181220376619_cont_9to1c4b_815_14_alg».proof.Proof.RefValue
import Idealize.ShloMosaic.Adequacy
import Idealize.ShloMosaic.Init

noncomputable section

namespace Cert.Proof

open Idealize.ShloMosaic Idealize.ShloMosaic.TcCoe Idealize.SL.Sem

/-- The word-level kernel terminates, faults nowhere and leaves x and adj as launched. -/
theorem frame_kernel : Cert.frame_Kernel := fun m ρ _ => Cert.Kernel.Rows.frame m ρ

/-- So does the kernel read at the ideal values. -/
theorem frame_kernel_ideal : Cert.frame_KernelIdeal := fun m ρ _ => Cert.KernelIdeal.Rows.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories agreeing on x and adj both programs end with the result at adj · x. -/
theorem algebraic : Cert.algebraic_KernelIdeal_ReferenceIdeal := by
  intro m ρ m' ρ' _ hagree
  refine ⟨_, Cert.KernelIdeal.Rows.run_value m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2, Cert.ReferenceIdeal.Read.val_main_v0_eq]
  exact Cert.ReferenceIdeal.RefValue.reference_is_product _ _

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
